-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_arg7 : FVec F S256x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x256 .f32) (main_arg3 : FVec F S256 .f32) (main_arg4 : FVec F S128x256 .f32) (main_arg5 : FVec F S256x128 .f32) (main_arg6 : FVec F S128 .f32) (main_arg7 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x128 : Shape := ⟨2, ![1, 128]⟩

abbrev nBuf : Space → Nat
  | .hbm => 66
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x256, .f32⟩
  | .hbm, ⟨38, _⟩ => ⟨S50000x256, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x256, .f32⟩
  | .hbm, ⟨48, _⟩ => ⟨S_, .f32⟩
  | .hbm, ⟨49, _⟩ => ⟨S50000x256, .f32⟩
  | .hbm, ⟨50, _⟩ => ⟨S800000x1, .i32⟩
  | .hbm, ⟨51, _⟩ => ⟨S50000x256, .f32⟩
  | .hbm, ⟨52, _⟩ => ⟨S_, .f32⟩
  | .hbm, ⟨53, _⟩ => ⟨S800000, .f32⟩
  | .hbm, ⟨54, _⟩ => ⟨S_, .f32⟩
  | .hbm, ⟨55, _⟩ => ⟨S50000, .f32⟩
  | .hbm, ⟨56, _⟩ => ⟨S800000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x256, .f32⟩
  | .hbm, ⟨63, _⟩ => ⟨S50000x256, .f32⟩
  | .hbm, ⟨64, _⟩ => ⟨S1x128, .f32⟩
  | .hbm, ⟨65, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The kernel program's run with its result buffer named.

  The program is two kernel regions among stretches of host operations. Its frame is proved by running the four segments
  in order; the buffer contents at each boundary form a fold from the launch memory, and the last boundary's contents
  are `Gen.W4`. The frame claim keeps from that run only that the argument arrays end as launched. Here the same run is
  read once more, keeping everything: every buffer that lives through the whole program ends at `Gen.W4`'s contents.
  The result buffer is one of them, and it is an array of the second region, so it ends at what that region's
  write-backs leave.
-/
import proofs.«166442_j11398843204124_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and on every core every buffer that is not
    scoped to a region ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run with the result buffer named: it ends at what the second region's write-backs leave in its output
    window's array; the eight argument arrays end as launched. -/
theorem run_result : θ_run defs (onTc (τ := τ) (main (F := F))) ⟨m, fun _ => 0, ρ⟩ (fun r => ∀ c : Dev nD,
      r.2.mem ((c.tc : Thread nD τ).loc main_v45) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c _ (mem_uc main_v45 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)
    (run_all m ρ)

end Cert.KernelIdeal.KRun
-- ==== Proof.HostReads0.lean ====
/-
  The kernel program's buffers when its first region is entered.

  Before the first region the program runs a stretch of host operations on the launch memory: it splits the edge list
  into its source and target rows, gathers the node features along the sources, sums them into the targets, counts
  each node's incoming edges, and divides — the mean of each node's incoming messages — and it reshapes the first
  bias vector to a one-row matrix. The contents after the stretch are a fold of those operations over the launch
  memory; here that fold is read at the buffers the first region and the later stretch use:

  * the aggregated mean is the same composition of operations the reference program applies to the same two
    arguments (its stage for that value), operation for operation — the two programs' descriptions of the gather,
    the sum and the reshapes are separate definitions with equal contents, and the comparison never opens an operation;
  * the source and target rows of the edge list are the reference's stages for them;
  * the node features and the two first-layer weight matrices are untouched by the stretch;
  * the one-row bias matrix at row 0, column `q`, is the bias vector at `q`.
-/
import proofs.«166442_j11398843204124_1_alg».proof.Proof.Gen.KernelIdeal.Frame
import proofs.«166442_j11398843204124_1_alg».proof.Proof.Gen.ReferenceIdeal.Read
import Idealize.ShloMosaic.Lib.StableHlo.Run
import Idealize.ShloMosaic.Lib.ValueLayout
set_option maxRecDepth 16384
noncomputable section
namespace Cert.KernelIdeal.HostReads
open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-! ## Buffers the first stretch does not write -/

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_main_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-! ## What the first stretch computes -/

set_option maxHeartbeats 2000000 in
/-- The mean of each node's incoming messages, as the first region finds it. -/
theorem W1_mean (c : Dev nD) : (W1 m ρ c (Proc.devRef .tc main_v22) : S50000x128.Idx → EReal)
    = Cert.ReferenceIdeal.Read.val_main_v22 (F := Ideal) (m ((c : Thread nD τ).loc main_arg0)) (m ((c : Thread nD τ).loc main_arg1)) := by
  show StableHlo.after hostOps0 (W0 m ρ c) (Proc.devRef .tc main_v22) = _
  after_results_simp
  rfl

set_option maxHeartbeats 2000000 in
/-- The edges' source nodes. -/
theorem W1_sources (c : Dev nD) : (W1 m ρ c (Proc.devRef .tc main_v1) : (⟨S800000, .i32⟩ : BufTy).Contents (Elt Ideal))
    = Cert.ReferenceIdeal.Read.val_main_v1 (F := Ideal) (m ((c : Thread nD τ).loc main_arg1)) := by
  show StableHlo.after hostOps0 (W0 m ρ c) (Proc.devRef .tc main_v1) = _
  after_results_simp
  rfl

set_option maxHeartbeats 2000000 in
/-- The edges' target nodes. -/
theorem W1_targets (c : Dev nD) : (W1 m ρ c (Proc.devRef .tc main_v3) : (⟨S800000, .i32⟩ : BufTy).Contents (Elt Ideal))
    = Cert.ReferenceIdeal.Read.val_main_v3 (F := Ideal) (m ((c : Thread nD τ).loc main_arg1)) := by
  show StableHlo.after hostOps0 (W0 m ρ c) (Proc.devRef .tc main_v3) = _
  after_results_simp
  rfl

set_option maxHeartbeats 2000000 in
/-- The first bias as a one-row matrix: at row 0 and column `q` it is the bias vector at `q`. -/
theorem W1_bias (c : Dev nD) (q : Fin 256) :
    (W1 m ρ c (Proc.devRef .tc main_v23) : S1x256.Idx → EReal) (ix2 0 q) = (m ((c : Thread nD τ).loc main_arg3) : S256.Idx → EReal) (ix1 q) := by
  have e : (W1 m ρ c (Proc.devRef .tc main_v23) : S1x256.Idx → EReal)
      = shapeCast S1x256 (m ((c : Thread nD τ).loc main_arg3) : S256.Idx → EReal) shapeCasts_S256_S1x256 := by
    show StableHlo.after hostOps0 (W0 m ρ c) (Proc.devRef .tc main_v23) = _
    after_results_simp
    rfl
  rw [e]
  exact shapeCast_a_1a_apply _ _ 0 q

end Cert.KernelIdeal.HostReads
-- ==== Proof.Spec.lean ====
/-
  One mean-aggregation graph layer, index by index, on the extended reals.

  For node features `x : [N, K]`, the mean of each node's incoming messages `mean : [N, K]`, two weight matrices
  `wl wr : [K, H]` and a bias `b : [H]`, the layer's value at node `p` and output channel `q` is

      sum_k mean(p, k) * wl(k, q)  +  sum_k x(p, k) * wr(k, q)  +  b(q).

  The three terms can be added in two orders: the two products first and the bias last, or the first product and the
  bias first and the second product last. Addition on the extended reals is commutative and associative (also at the
  infinities), so the two orders agree with no finiteness assumption. A layer followed by a maximum with a fixed value
  (a rectifier) agrees in both orders for the same reason.
-/
import Idealize.ShloMosaic.PureOps.Ideal
import Idealize.ShloMosaic.Lib.ValueIdx
open scoped BigOperators
noncomputable section
namespace Cert.Sage
open Idealize.ShloMosaic Idealize.ShloMosaic.ValueIdx

variable {N K H : Nat}

/-- The layer with the two products added first and the bias last. -/
def productsThenBias (mean x : Fin N → Fin K → EReal) (wl wr : Fin K → Fin H → EReal) (b : Fin H → EReal)
    (p : Fin N) (q : Fin H) : EReal :=
  ((∑ k : Fin K, mean p k * wl k q) + ∑ k : Fin K, x p k * wr k q) + b q

/-- The layer with the bias added to the first product and the second product added last. -/
def biasThenProduct (mean x : Fin N → Fin K → EReal) (wl wr : Fin K → Fin H → EReal) (b : Fin H → EReal)
    (p : Fin N) (q : Fin H) : EReal :=
  ((∑ k : Fin K, mean p k * wl k q) + b q) + ∑ k : Fin K, x p k * wr k q

/-- The two orders of adding the three terms agree: `(s + t) + b = (s + b) + t` in a commutative additive monoid. -/
theorem productsThenBias_eq_biasThenProduct (mean x : Fin N → Fin K → EReal) (wl wr : Fin K → Fin H → EReal)
    (b : Fin H → EReal) (p : Fin N) (q : Fin H) :
    productsThenBias mean x wl wr b p q = biasThenProduct mean x wl wr b p q :=
  add_right_comm _ _ _

/-- A rank-2 array read through its two coordinates. -/
abbrev at2 {A B : Nat} (a : (⟨2, ![A, B]⟩ : Shape).Idx → EReal) : Fin A → Fin B → EReal := fun p q => a (ix2 p q)

/-- A rank-1 array read through its coordinate. -/
abbrev at1 {A : Nat} (a : (⟨1, ![A]⟩ : Shape).Idx → EReal) : Fin A → EReal := fun q => a (ix1 q)

/-- A function of two coordinates as a rank-2 array. -/
abbrev arr2 {A B : Nat} (f : Fin A → Fin B → EReal) : (⟨2, ![A, B]⟩ : Shape).Idx → EReal := fun i => f (i 0) (i 1)

theorem arr2_ix2 {A B : Nat} (f : Fin A → Fin B → EReal) (p : Fin A) (q : Fin B) : arr2 f (ix2 p q) = f p q := rfl

/-- Two rank-2 arrays that agree at every pair of coordinates are equal. -/
theorem ext2 {A B : Nat} {a a' : (⟨2, ![A, B]⟩ : Shape).Idx → EReal} (h : ∀ p q, a (ix2 p q) = a' (ix2 p q)) : a = a' := by
  funext i
  rw [eq_ix2 i]
  exact h _ _

/-! ## A layer as one whole-array function of the five arrays a region reads

The bias arrives as a one-row matrix `[1, H]` (the bias vector reshaped), read at row 0. -/

/-- The layer's output array, the two products added first and the bias row last. -/
def layerArray (mean x : (⟨2, ![N, K]⟩ : Shape).Idx → EReal) (wl wr : (⟨2, ![K, H]⟩ : Shape).Idx → EReal)
    (brow : (⟨2, ![1, H]⟩ : Shape).Idx → EReal) : (⟨2, ![N, H]⟩ : Shape).Idx → EReal :=
  arr2 (productsThenBias (at2 mean) (at2 x) (at2 wl) (at2 wr) (fun q => brow (ix2 0 q)))

/-- The same followed by the maximum with a fixed floor `z` (the rectifier when `z` is zero). -/
def rectifiedLayerArray (z : EReal) (mean x : (⟨2, ![N, K]⟩ : Shape).Idx → EReal) (wl wr : (⟨2, ![K, H]⟩ : Shape).Idx → EReal)
    (brow : (⟨2, ![1, H]⟩ : Shape).Idx → EReal) : (⟨2, ![N, H]⟩ : Shape).Idx → EReal :=
  arr2 fun p q => max (productsThenBias (at2 mean) (at2 x) (at2 wl) (at2 wr) (fun q => brow (ix2 0 q)) p q) z

theorem layerArray_ix2 (mean x : (⟨2, ![N, K]⟩ : Shape).Idx → EReal) (wl wr : (⟨2, ![K, H]⟩ : Shape).Idx → EReal)
    (brow : (⟨2, ![1, H]⟩ : Shape).Idx → EReal) (p : Fin N) (q : Fin H) :
    layerArray mean x wl wr brow (ix2 p q)
      = ((∑ k : Fin K, mean (ix2 p k) * wl (ix2 k q)) + ∑ k : Fin K, x (ix2 p k) * wr (ix2 k q)) + brow (ix2 0 q) := rfl

theorem rectifiedLayerArray_ix2 (z : EReal) (mean x : (⟨2, ![N, K]⟩ : Shape).Idx → EReal) (wl wr : (⟨2, ![K, H]⟩ : Shape).Idx → EReal)
    (brow : (⟨2, ![1, H]⟩ : Shape).Idx → EReal) (p : Fin N) (q : Fin H) :
    rectifiedLayerArray z mean x wl wr brow (ix2 p q)
      = max (((∑ k : Fin K, mean (ix2 p k) * wl (ix2 k q)) + ∑ k : Fin K, x (ix2 p k) * wr (ix2 k q)) + brow (ix2 0 q)) z := rfl

end Cert.Sage
-- ==== Proof.RefValue.lean ====
/-
  The reference program's result as the composition of two graph layers.

  The reference computes, for node features `x`, an edge list `e`, and per layer two weight matrices and a bias,

      h   = max (mean_1 · W1_l + b1 + x · W1_r, 0)          mean_1 = the mean of each node's incoming messages from `x`
      out =      mean_2 · W2_l + b2 + h · W2_r               mean_2 = the same mean taken from `h`

  where "mean of incoming messages" is a gather along the edges' sources, a sum into the edges' targets, and a
  division by the number of incoming edges (at least one). That aggregation is never opened here: the first one is the
  reference's own stage `val_main_v22`, a function of `x` and `e`; the second one, which the stages state as a function of
  the program's arguments, is restated as ONE function `meanHidden` of the hidden features `h` and `e`.
  Everything else is read index by index: each matrix product is a sum over the contracted coordinate, each bias is
  the bias vector at the output channel, and the rectifier is the maximum with the zero word.
-/
import proofs.«166442_j11398843204124_1_alg».proof.Proof.Gen.ReferenceIdeal.Read
import proofs.«166442_j11398843204124_1_alg».proof.Proof.Spec
import Idealize.ShloMosaic.Lib.ValueIdx
open scoped BigOperators
noncomputable section
namespace Cert.ReferenceIdeal.RefValue
open Cert.ReferenceIdeal Cert.ReferenceIdeal.Read Idealize.ShloMosaic Idealize.ShloMosaic.ValueIdx Cert.Sage

/-- The rectifier's floor in the reference: the zero word read as a float. -/
abbrev floorR : EReal := FloatOps.ofBits (F := Ideal) .f32 0x00000000#32

section Aggregation
variable {F : FTy → Type} [FloatOps F]

/-- The mean of each node's incoming hidden features, as one function of the hidden features and the edge list:
    the rows of `h` gathered at the edges' sources, summed into the edges' targets, divided by the clamped in-degree. -/
def meanHidden (h : (⟨S50000x256, .f32⟩ : BufTy).Contents (Elt F)) (x1 : (⟨S2x800000, .i32⟩ : BufTy).Contents (Elt F)) :
    (⟨S50000x256, .f32⟩ : BufTy).Contents (Elt F) :=
  Host.divf (Host.scatterAdd scatter_S50000x256_S800000x1_S800000x256_1_0_0_1 (val_main_v37 (F := F)) (val_main_v38 (F := F) x1)
    (Host.gather gather_S50000x256_S800000x1_S800000x256_1_0_n_n_0_1_1256 h (val_main_v35 (F := F) x1))) (val_main_v47 (F := F) x1)

/-- The second layer's aggregated input is `meanHidden` of the first layer's output. -/
theorem val_main_v48_eq_meanHidden (x0 : (⟨S50000x128, .f32⟩ : BufTy).Contents (Elt F)) (x1 : (⟨S2x800000, .i32⟩ : BufTy).Contents (Elt F))
    (x2 : (⟨S128x256, .f32⟩ : BufTy).Contents (Elt F)) (x3 : (⟨S256, .f32⟩ : BufTy).Contents (Elt F)) (x4 : (⟨S128x256, .f32⟩ : BufTy).Contents (Elt F)) :
    val_main_v48 (F := F) x0 x1 x2 x3 x4 = meanHidden (val_main_v29 (F := F) x0 x1 x2 x3 x4) x1 := rfl

end Aggregation

/-! ## The index functions of the stages, at an index given by its coordinates -/

theorem lidx23 (p : Fin 50000) (q : Fin 256) (k : Fin 128) : lidx_main_v23 (ix2 p q) k = ix2 p k :=
  funext fun a => Fin.ext (by match a with | ⟨0, _⟩ => rfl | ⟨1, _⟩ => rfl)
theorem ridx23 (p : Fin 50000) (q : Fin 256) (k : Fin 128) : ridx_main_v23 (ix2 p q) k = ix2 k q :=
  funext fun a => Fin.ext (by match a with | ⟨0, _⟩ => rfl | ⟨1, _⟩ => rfl)
theorem lidx27 (p : Fin 50000) (q : Fin 256) (k : Fin 128) : lidx_main_v27 (ix2 p q) k = ix2 p k :=
  funext fun a => Fin.ext (by match a with | ⟨0, _⟩ => rfl | ⟨1, _⟩ => rfl)
theorem ridx27 (p : Fin 50000) (q : Fin 256) (k : Fin 128) : ridx_main_v27 (ix2 p q) k = ix2 k q :=
  funext fun a => Fin.ext (by match a with | ⟨0, _⟩ => rfl | ⟨1, _⟩ => rfl)
theorem lidx49 (p : Fin 50000) (q : Fin 128) (k : Fin 256) : lidx_main_v49 (ix2 p q) k = ix2 p k :=
  funext fun a => Fin.ext (by match a with | ⟨0, _⟩ => rfl | ⟨1, _⟩ => rfl)
theorem ridx49 (p : Fin 50000) (q : Fin 128) (k : Fin 256) : ridx_main_v49 (ix2 p q) k = ix2 k q :=
  funext fun a => Fin.ext (by match a with | ⟨0, _⟩ => rfl | ⟨1, _⟩ => rfl)
theorem lidx53 (p : Fin 50000) (q : Fin 128) (k : Fin 256) : lidx_main_v53 (ix2 p q) k = ix2 p k :=
  funext fun a => Fin.ext (by match a with | ⟨0, _⟩ => rfl | ⟨1, _⟩ => rfl)
theorem ridx53 (p : Fin 50000) (q : Fin 128) (k : Fin 256) : ridx_main_v53 (ix2 p q) k = ix2 k q :=
  funext fun a => Fin.ext (by match a with | ⟨0, _⟩ => rfl | ⟨1, _⟩ => rfl)
/-- The first bias, broadcast to every node, is read at the output channel. -/
theorem biasIdx1 (p : Fin 50000) (q : Fin 256) : idx_main_v24 (idx_main_v25 (ix2 p q)) = ix1 q :=
  funext fun a => Fin.ext (by match a with | ⟨0, _⟩ => rfl)
/-- The second bias, broadcast to every node, is read at the output channel. -/
theorem biasIdx2 (p : Fin 50000) (q : Fin 128) : idx_main_v50 (idx_main_v51 (ix2 p q)) = ix1 q :=
  funext fun a => Fin.ext (by match a with | ⟨0, _⟩ => rfl)

/-! ## The two layers, index by index -/

variable (x0 : (⟨S50000x128, .f32⟩ : BufTy).Contents (Elt Ideal)) (x1 : (⟨S2x800000, .i32⟩ : BufTy).Contents (Elt Ideal))
  (x2 : (⟨S128x256, .f32⟩ : BufTy).Contents (Elt Ideal)) (x3 : (⟨S256, .f32⟩ : BufTy).Contents (Elt Ideal)) (x4 : (⟨S128x256, .f32⟩ : BufTy).Contents (Elt Ideal))
  (x5 : (⟨S256x128, .f32⟩ : BufTy).Contents (Elt Ideal)) (x6 : (⟨S128, .f32⟩ : BufTy).Contents (Elt Ideal)) (x7 : (⟨S256x128, .f32⟩ : BufTy).Contents (Elt Ideal))

/-- The hidden features at node `p`, channel `q`: the first layer (bias added to the first product, then the second
    product) followed by the maximum with the zero word. -/
theorem hidden_at (p : Fin 50000) (q : Fin 256) :
    val_main_v29 (F := Ideal) x0 x1 x2 x3 x4 (ix2 p q)
      = max (biasThenProduct (at2 (val_main_v22 (F := Ideal) x0 x1)) (at2 x0) (at2 x2) (at2 x4) (at1 x3) p q) floorR := by
  rw [val_main_v29_apply, val_main_v28_apply, val_main_v26_apply, val_main_v23_apply, val_main_v27_apply,
    val_main_v25_apply, val_main_v24_apply, val_main_call0_v0_apply, val_main_call0_cst_apply]
  simp only [lidx23, ridx23, lidx27, ridx27, biasIdx1]
  rfl

/-- The result at node `p`, channel `q`: the second layer over the hidden features and their aggregated mean. -/
theorem result_at (p : Fin 50000) (q : Fin 128) :
    val_main_v54 (F := Ideal) x0 x1 x2 x3 x4 x5 x6 x7 (ix2 p q)
      = biasThenProduct (at2 (meanHidden (val_main_v29 (F := Ideal) x0 x1 x2 x3 x4) x1)) (at2 (val_main_v29 (F := Ideal) x0 x1 x2 x3 x4))
          (at2 x5) (at2 x7) (at1 x6) p q := by
  rw [val_main_v54_apply, val_main_v52_apply, val_main_v49_apply, val_main_v53_apply, val_main_v51_apply,
    val_main_v50_apply, val_main_v48_eq_meanHidden]
  simp only [lidx49, ridx49, lidx53, ridx53, biasIdx2]
  rfl

end Cert.ReferenceIdeal.RefValue
-- ==== Proof.HostReads1.lean ====
/-
  The kernel program's buffers when its second region is entered.

  Between the two regions the program runs a second stretch of host operations, on the contents the first region
  leaves: it gathers the hidden features (the first region's output) along the edges' sources, sums them into the
  targets, divides by the clamped in-degree — the same mean as before, now of the hidden features — and reshapes the
  second bias vector to a one-row matrix. The edges' source and target rows were computed by the first stretch and
  are no array of the first region, so they reach this stretch unchanged. Read at the buffers the second region uses:

  * the aggregated mean is the reference's one function `meanHidden` of the hidden features and the edge list;
  * the hidden features are untouched by the stretch;
  * the two second-layer weight matrices are untouched by either stretch and are no array of the first region;
  * the one-row bias matrix at row 0, column `q`, is the second bias vector at `q`.
-/
import proofs.«166442_j11398843204124_1_alg».proof.Proof.HostReads0
import proofs.«166442_j11398843204124_1_alg».proof.Proof.RefValue
set_option maxRecDepth 16384
noncomputable section
namespace Cert.KernelIdeal.HostReads
open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-! ## Buffers the second stretch does not write -/

/-- The hidden features reach the second region as the first region left them. -/
theorem W3_hidden (c : Dev nD) : W3 m ρ c (Proc.devRef .tc main_v24) = W2 m ρ c (Proc.devRef .tc main_v24) :=
  StableHlo.after_of_forall_not_mem (b := Proc.devRef .tc main_v24) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W3_main_arg5 (c : Dev nD) : W3 m ρ c (Proc.devRef .tc main_arg5) = m ((c : Thread nD τ).loc main_arg5) :=
  ((StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_of_ne m ρ c main_arg5 (by decide))).trans (W1_main_arg5 m ρ c)

theorem W3_main_arg7 (c : Dev nD) : W3 m ρ c (Proc.devRef .tc main_arg7) = m ((c : Thread nD τ).loc main_arg7) :=
  ((StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_of_ne m ρ c main_arg7 (by decide))).trans (W1_main_arg7 m ρ c)

/-! ## What the second stretch computes -/

set_option maxHeartbeats 2000000 in
/-- The mean of each node's incoming hidden features, as the second region finds it. -/
theorem W3_mean (c : Dev nD) : (W3 m ρ c (Proc.devRef .tc main_v43) : S50000x256.Idx → EReal)
    = Cert.ReferenceIdeal.RefValue.meanHidden (F := Ideal) (W2 m ρ c (Proc.devRef .tc main_v24)) (m ((c : Thread nD τ).loc main_arg1)) := by
  show StableHlo.after hostOps1 (W2 m ρ c) (Proc.devRef .tc main_v43) = _
  after_results_simp
  rw [W2_of_ne m ρ c main_v1 (by decide), W2_of_ne m ρ c main_v3 (by decide), W1_sources m ρ c, W1_targets m ρ c]
  rfl

set_option maxHeartbeats 2000000 in
/-- The second bias as a one-row matrix: at row 0 and column `q` it is the bias vector at `q`. -/
theorem W3_bias (c : Dev nD) (q : Fin 128) :
    (W3 m ρ c (Proc.devRef .tc main_v44) : S1x128.Idx → EReal) (ix2 0 q) = (m ((c : Thread nD τ).loc main_arg6) : S128.Idx → EReal) (ix1 q) := by
  have e : (W3 m ρ c (Proc.devRef .tc main_v44) : S1x128.Idx → EReal)
      = shapeCast S1x128 (m ((c : Thread nD τ).loc main_arg6) : S128.Idx → EReal) shapeCasts_S128_S1x128 := by
    show StableHlo.after hostOps1 (W2 m ρ c) (Proc.devRef .tc main_v44) = _
    after_results_simp
    rw [W2_of_ne m ρ c main_arg6 (by decide), W1_main_arg6 m ρ c]
    rfl
  rw [e]
  exact shapeCast_a_1a_apply _ _ 0 q

end Cert.KernelIdeal.HostReads
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.Region0.lean ====
/-
  Region 0 of the kernel: what its output array holds when the region ends, as one function of the five arrays it reads.
-/
import proofs.«166442_j11398843204124_1_alg».proof.Proof.Gen.KernelIdeal.Frame
import proofs.«166442_j11398843204124_1_alg».proof.Proof.Spec
import proofs.«166442_j11398843204124_1_alg».proof.Proof.LibMatmul
import Idealize.ShloMosaic.Lib.ValueIdx
import Idealize.ShloMosaic.Lib.Pipeline.Value
import Idealize.ShloMosaic.Lib.ValueLayout
import Idealize.ShloMosaic.PureOps.Ideal.Laws

set_option maxRecDepth 16384
open scoped BigOperators
noncomputable section
namespace Cert.KernelIdeal.Region0
open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Sage

variable (V : (c : Dev nD) → (b : Ref sig .tc) → Buf (Elt Ideal) ((c : Thread nD τ).loc b))

/-- The rectifier's floor: the zero word read as a float. -/
abbrev floor0 : EReal := Scalar.ofBits (F := Ideal) .f32 0x00000000#32

/-- The contraction record the body's two products carry, of `[2000, 128] × [128, 256]`, is the plain matrix product's:
    the same six axis lists, and the remaining field is a proof. -/
theorem dot_eq_plain : dot_S2000x128_S128x256_S2000x256_1_0_0_1_n_n = DotDims.plain 2000 128 256 := rfl

/-- One product of the body at `(p, q)`: rounding both operands to the narrower format is the identity on the extended
    reals, and the product into the zero accumulator is the sum over the contracted axis. -/
theorem product_at (l : FVec Ideal S2000x128 .f32) (r : FVec Ideal S128x256 .f32) (h : FTy.bits .bf16 < FTy.bits .f32)
    (p : Fin 2000) (q : Fin 256) :
    matmul (F := Ideal) dot_S2000x128_S128x256_S2000x256_1_0_0_1_n_n none (truncf .bf16 l h) (truncf .bf16 r h)
        (constant S2000x256 .f32 0x00000000#32) (ix2 p q)
      = ∑ k : Fin 128, l (ix2 p k) * r (ix2 k q) := by
  rw [dot_eq_plain]
  exact Cert.MatOps.matmul_plain_zero_apply none _ _ p q

/-- The body's value at `(p, q)`: the two products summed over the contracted axis, the bias row added, and the maximum
    with the floor. The casts of a shape to itself and the roundings are identities; each pointwise operation is read at
    the index; the one-row bias broadcast over the rows is read at row 0. -/
theorem payload_at (x0 x1 : Vec Ideal S2000x128 .f32) (x2 x3 : Vec Ideal S128x256 .f32) (x4 : Vec Ideal S1x256 .f32) (p : Fin 2000) (q : Fin 256) :
    k0_pay1 x0 x1 x2 x3 x4 (ix2 p q) = max (((∑ k : Fin 128, x0 (ix2 p k) * x2 (ix2 k q)) + ∑ k : Fin 128, x1 (ix2 p k) * x3 (ix2 k q)) + x4 (ix2 0 q)) floor0 := by
  unfold k0_pay1
  rw [shapeCast_self, shapeCast_self]
  refine (maximumf_apply _ _ (ix2 p q)).trans ?_
  refine congrArg₂ max ?_ (broadcast_apply _ (ix2 p q))
  refine (addf_apply _ _ (ix2 p q)).trans ?_
  refine congrArg₂ (· + ·) ?_ (broadcastTo_1b_ab_apply x4 _ p q)
  refine (addf_apply _ _ (ix2 p q)).trans ?_
  exact congrArg₂ (· + ·) (product_at x0 x2 _ p q) (product_at x1 x3 _ p q)

/-- The zero offsets of a whole-block access, spelt as a constant function. -/
theorem zero_offsets : (![0, 0] : Fin 2 → Nat) = fun _ => 0 := funext fun a => by fin_cases a <;> rfl

/-- The block index of every window at every grid point, decided once over the 25 points: the two feature windows and
    the output window take row block `t`, column block 0; the two weight windows and the bias window always take
    block `(0, 0)`. -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

/-- Row `p` of row block `t` is row `2000 t + p` of the array. -/
def rowOf (t : Fin cfg0.N) (p : Fin 2000) : Fin 50000 :=
  ⟨t.val * 2000 + p.val, by have h := t.isLt; have hN : cfg0.N = 25 := N_0; omega⟩

/-- The layer at one point, over any arrays and any blocks: if the five blocks agree with the five arrays where row `p`
    of the block is row `r` of the array (the weights and the bias read at the same place in block and array), the
    body's value at `(p, q)` is the rectified layer of the arrays at `(r, q)`. -/
theorem point_eq (A0 A1 : S50000x128.Idx → EReal) (A2 A3 : S128x256.Idx → EReal) (A4 : S1x256.Idx → EReal)
    (x0 x1 : Vec Ideal S2000x128 .f32) (x2 x3 : Vec Ideal S128x256 .f32) (x4 : Vec Ideal S1x256 .f32)
    (r : Fin 50000) (p : Fin 2000) (q : Fin 256)
    (h0 : ∀ k : Fin 128, x0 (ix2 p k) = A0 (ix2 r k)) (h1 : ∀ k : Fin 128, x1 (ix2 p k) = A1 (ix2 r k))
    (h2 : ∀ k : Fin 128, x2 (ix2 k q) = A2 (ix2 k q)) (h3 : ∀ k : Fin 128, x3 (ix2 k q) = A3 (ix2 k q))
    (h4 : x4 (ix2 0 q) = A4 (ix2 0 q)) :
    k0_pay1 x0 x1 x2 x3 x4 (ix2 p q) = rectifiedLayerArray floor0 A0 A1 A2 A3 A4 (ix2 r q) := by
  refine (payload_at x0 x1 x2 x3 x4 p q).trans ?_
  refine Eq.trans ?_ (rectifiedLayerArray_ix2 floor0 A0 A1 A2 A3 A4 r q).symm
  refine congrArg₂ max (congrArg₂ (· + ·) (congrArg₂ (· + ·) ?_ ?_) h4) rfl
  · exact Finset.sum_congr rfl fun k _ => congrArg₂ (· * ·) (h0 k) (h2 k)
  · exact Finset.sum_congr rfl fun k _ => congrArg₂ (· * ·) (h1 k) (h3 k)

/-- The first feature window's block at point `t` holds rows `2000 t …` of its array. -/
theorem block0_at (c : Dev nD) (t : Fin cfg0.N) (p : Fin 2000) (k : Fin 128) :
    (iblk0 (F := Ideal) V c 0 t : Vec Ideal S2000x128 .f32) (ix2 p k) = (V c main_v22 : S50000x128.Idx → EReal) (ix2 (rowOf t p) k) := by
  obtain ⟨⟨e0, e1⟩, -⟩ := block_index t
  unfold iblk0
  rw [View.read_apply]
  show V c main_v22 _ = V c main_v22 _
  refine congrArg (V c main_v22) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The second feature window's block at point `t` holds rows `2000 t …` of its array. -/
theorem block1_at (c : Dev nD) (t : Fin cfg0.N) (p : Fin 2000) (k : Fin 128) :
    (iblk0 (F := Ideal) V c 1 t : Vec Ideal S2000x128 .f32) (ix2 p k) = (V c main_arg0 : S50000x128.Idx → EReal) (ix2 (rowOf t p) k) := by
  obtain ⟨-, ⟨e0, e1⟩, -⟩ := block_index t
  unfold iblk0
  rw [View.read_apply]
  show V c main_arg0 _ = V c main_arg0 _
  refine congrArg (V c main_arg0) (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

/-- The first weight window's block at every point is its whole array. -/
theorem block2_at (c : Dev nD) (t : Fin cfg0.N) (k : Fin 128) (q : Fin 256) :
    (iblk0 (F := Ideal) V c 2 t : Vec Ideal S128x256 .f32) (ix2 k q) = (V c main_arg2 : S128x256.Idx → EReal) (ix2 k q) := by
  obtain ⟨-, -, ⟨e0, e1⟩, -⟩ := block_index t
  unfold iblk0
  rw [View.read_apply]
  show V c main_arg2 _ = V c main_arg2 _
  refine congrArg (V c main_arg2) (funext fun a => Fin.ext ?_)
  match a with
  | ⟨0, _⟩ => show win0_2.index t (0 : Fin 2) * 128 + 1 * k.val = k.val; rw [e0]; omega
  | ⟨1, _⟩ => show win0_2.index t (1 : Fin 2) * 256 + 1 * q.val = q.val; rw [e1]; omega

/-- The second weight window's block at every point is its whole array. -/
theorem block3_at (c : Dev nD) (t : Fin cfg0.N) (k : Fin 128) (q : Fin 256) :
    (iblk0 (F := Ideal) V c 3 t : Vec Ideal S128x256 .f32) (ix2 k q) = (V c main_arg4 : S128x256.Idx → EReal) (ix2 k q) := by
  obtain ⟨-, -, -, ⟨e0, e1⟩, -⟩ := block_index t
  unfold iblk0
  rw [View.read_apply]
  show V c main_arg4 _ = V c main_arg4 _
  refine congrArg (V c main_arg4) (funext fun a => Fin.ext ?_)
  match a with
  | ⟨0, _⟩ => show win0_3.index t (0 : Fin 2) * 128 + 1 * k.val = k.val; rw [e0]; omega
  | ⟨1, _⟩ => show win0_3.index t (1 : Fin 2) * 256 + 1 * q.val = q.val; rw [e1]; omega

/-- The bias window's block at every point is its whole one-row array. -/
theorem block4_at (c : Dev nD) (t : Fin cfg0.N) (z : Fin 1) (q : Fin 256) :
    (iblk0 (F := Ideal) V c 4 t : Vec Ideal S1x256 .f32) (ix2 z q) = (V c main_v23 : S1x256.Idx → EReal) (ix2 z q) := by
  obtain ⟨-, -, -, -, ⟨e0, e1⟩, -⟩ := block_index t
  unfold iblk0
  rw [View.read_apply]
  show V c main_v23 _ = V c main_v23 _
  refine congrArg (V c main_v23) (funext fun a => Fin.ext ?_)
  match a with
  | ⟨0, _⟩ => show win0_4.index t (0 : Fin 2) * 1 + 1 * z.val = z.val; rw [e0]; omega
  | ⟨1, _⟩ => show win0_4.index t (1 : Fin 2) * 256 + 1 * q.val = q.val; rw [e1]; omega

/-- Where the output window's block at point `t` sits in its array: element `(p, q)` of the block is element
    `(2000 t + p, q)` of the array. -/
theorem out_at (t : Fin cfg0.N) (p : Fin 2000) (q : Fin 256) :
    (((cfg0.win 5).blk t).view.emb (ix2 p q : S2000x256.Idx) : S50000x256.Idx) = ix2 (rowOf t p) q := by
  obtain ⟨-, -, -, -, -, e0, e1⟩ := block_index t
  refine funext fun a => Fin.ext ?_
  match a with
  | ⟨0, _⟩ => show win0_5.index t (0 : Fin 2) * 2000 + 1 * p.val = t.val * 2000 + p.val; rw [e0]; omega
  | ⟨1, _⟩ => show win0_5.index t (1 : Fin 2) * 256 + 1 * q.val = q.val; rw [e1]; omega

/-- What point `t` writes back is block `t` of the rectified layer of the five whole arrays: element `(p, q)` of the
    block is the body's value on the five blocks, which read the arrays at row `2000 t + p` (features), everywhere
    (weights, bias), and the output block's element `(p, q)` sits at `(2000 t + p, q)` of the output array. -/
theorem flushed_block (c : Dev nD) (t : Fin cfg0.N) :
    (dat0 (F := Ideal) V c).flushed 5 t
      = ((cfg0.win 5).blk t).view.read (Elt Ideal)
          (rectifiedLayerArray floor0 (V c main_v22) (V c main_arg0) (V c main_arg2) (V c main_arg4) (V c main_v23)) := by
  show (cfg0.win 5).cut (grid0.coords t) ((dat0 (F := Ideal) V c).after 5 t) = _
  rw [after0_5]
  unfold out0_5
  rw [View.canon_unit_zero zero_offsets]
  simp only [View.ld_unit_zero (S := S2000x128) zero_offsets, View.ld_unit_zero (S := S128x256) zero_offsets, View.ld_unit_zero (S := S1x256) zero_offsets]
  refine funext fun (j : S2000x256.Idx) => ?_
  obtain ⟨p, q, rfl⟩ : ∃ (p : Fin 2000) (q : Fin 256), j = ix2 p q := ⟨j 0, j 1, eq_ix2 j⟩
  show k0_pay1 (iblk0 V c 0 t) (iblk0 V c 1 t) (iblk0 V c 2 t) (iblk0 V c 3 t) (iblk0 V c 4 t) (ix2 p q)
    = rectifiedLayerArray floor0 (V c main_v22) (V c main_arg0) (V c main_arg2) (V c main_arg4) (V c main_v23)
        (((cfg0.win 5).blk t).view.emb (ix2 p q : S2000x256.Idx))
  refine (point_eq (V c main_v22) (V c main_arg0) (V c main_arg2) (V c main_arg4) (V c main_v23)
    (iblk0 V c 0 t) (iblk0 V c 1 t) (iblk0 V c 2 t) (iblk0 V c 3 t) (iblk0 V c 4 t) (rowOf t p) p q
    (fun k => block0_at V c t p k) (fun k => block1_at V c t p k) (fun k => block2_at V c t k q)
    (fun k => block3_at V c t k q) (block4_at V c t 0 q)).trans ?_
  exact congrArg (rectifiedLayerArray floor0 (V c main_v22) (V c main_arg0) (V c main_arg2) (V c main_arg4) (V c main_v23))
    (out_at t p q).symm

/-- Every row of the output array lies in the block of the point `row / 2000`, and every point writes its block back. -/
theorem rows_covered (i : S50000x256.Idx) :
    ∃ t : Fin cfg0.N, (cfg0.win 5).flush t = true ∧ i ∈ ((cfg0.win 5).blk t).view.set := by
  have hN : cfg0.N = 25 := N_0
  have hi0 : (i 0).val < 50000 := (i 0).isLt
  have hi1 : (i 1).val < 256 := (i 1).isLt
  obtain ⟨t, ht⟩ : ∃ t : Fin cfg0.N, t.val = (i 0).val / 2000 := ⟨⟨(i 0).val / 2000, by omega⟩, rfl⟩
  obtain ⟨-, -, -, -, -, e0, e1⟩ := block_index t
  refine ⟨t, flush0_5 t, ?_⟩
  show i ∈ ((View.whole main_v24).slice (win0_5.rect t)).set
  rw [View.set_slice_whole, Rect.mem_set_unit]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 256 ≤ (i 1).val ∧ (i 1).val < win0_5.index t (1 : Fin 2) * 256 + 256
    rw [e1]; omega

/-- The output array when the region ends: every point writes block `t` of one whole-array function and the 25 blocks
    cover the 50000 rows, so the array is that function, the rectified layer of the five arrays the region reads. -/
theorem final0 (c : Dev nD) :
    (dat0 (F := Ideal) V c).arrAt 5 cfg0.N
      = rectifiedLayerArray floor0 (V c main_v22) (V c main_arg0) (V c main_arg2) (V c main_arg4) (V c main_v23) :=
  (dat0 (F := Ideal) V c).arrAt_eq_of_cover 5 _ (fun t _ => flushed_block V c t) rows_covered

end Cert.KernelIdeal.Region0
-- ==== Proof.Region1.lean ====
/-
  Region 1 of the kernel: what its output array holds when the region ends, as one function of the five arrays it reads.

  The region is one graph layer over 50000 nodes in 25 blocks of 2000 rows. At each block the body computes, for row `p`
  and channel `q`, the two matrix products' sums over the 256 contracted coordinates plus the bias row; block `t` of the
  two feature arrays is rows `2000 t … 2000 t + 1999`, the two weight matrices and the bias row are read whole at every
  block, and the 25 output blocks tile the 50000 rows. So the output array ends as the layer's whole-array function.
-/
import proofs.«166442_j11398843204124_1_alg».proof.Proof.Gen.KernelIdeal.Frame
import proofs.«166442_j11398843204124_1_alg».proof.Proof.Spec
import proofs.«166442_j11398843204124_1_alg».proof.Proof.LibMatmul
import Idealize.ShloMosaic.Lib.ValueIdx
import Idealize.ShloMosaic.Lib.Pipeline.Value
import Idealize.ShloMosaic.Lib.ValueLayout
import Idealize.ShloMosaic.PureOps.Ideal.Laws

set_option maxRecDepth 16384
open scoped BigOperators
noncomputable section
namespace Cert.KernelIdeal.Region1
open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Sage

variable (V : (c : Dev nD) → (b : Ref sig .tc) → Buf (Elt Ideal) ((c : Thread nD τ).loc b))

/-! ## The body's value at an index -/

/-- The printed contraction record has the plain matrix product's six axis lists. -/
theorem dot_eq_plain : dot_S2000x256_S256x128_S2000x128_1_0_0_1_n_n = DotDims.plain 2000 256 128 := rfl

/-- The body's value at row `p`, channel `q`: the casts of a shape to itself and the changes of float format are the
    identity on extended reals, each matrix product into the zero accumulator is the sum over the 256 contracted
    coordinates, and the one-row bias is read at row 0. -/
theorem payload_at (x0 x1 : Vec Ideal S2000x256 .f32) (x2 x3 : Vec Ideal S256x128 .f32) (x4 : Vec Ideal S1x128 .f32) (p : Fin 2000) (q : Fin 128) :
    k1_pay1 x0 x1 x2 x3 x4 (ix2 p q) = ((∑ k : Fin 256, x0 (ix2 p k) * x2 (ix2 k q)) + ∑ k : Fin 256, x1 (ix2 p k) * x3 (ix2 k q)) + x4 (ix2 0 q) := by
  unfold k1_pay1
  rw [shapeCast_self, shapeCast_self, shapeCast_self, dot_eq_plain]
  refine (addf_apply _ _ _).trans ?_
  refine congrArg₂ (· + ·) ((addf_apply _ _ _).trans (congrArg₂ (· + ·) ?_ ?_)) ?_
  · exact Cert.MatOps.matmul_plain_zero_apply none _ _ p q
  · exact Cert.MatOps.matmul_plain_zero_apply none _ _ p q
  · exact broadcastTo_1b_ab_apply x4 _ p q

/-- The same when the five operands are pieces of five arrays: the two feature blocks hold row `P` of their arrays
    at their row `p`, and the two weight matrices and the bias row are their whole arrays. The body's value at
    `(p, q)` is then the layer's at `(P, q)`. -/
theorem payload_rows (A0 A1 : S50000x256.Idx → EReal) (A2 A3 : S256x128.Idx → EReal) (A4 : S1x128.Idx → EReal)
    (x0 x1 : Vec Ideal S2000x256 .f32) (x2 x3 : Vec Ideal S256x128 .f32) (x4 : Vec Ideal S1x128 .f32)
    (p : Fin 2000) (q : Fin 128) (P : Fin 50000)
    (h0 : ∀ k : Fin 256, x0 (ix2 p k) = A0 (ix2 P k)) (h1 : ∀ k : Fin 256, x1 (ix2 p k) = A1 (ix2 P k))
    (h2 : x2 = A2) (h3 : x3 = A3) (h4 : x4 = A4) :
    k1_pay1 x0 x1 x2 x3 x4 (ix2 p q) = layerArray A0 A1 A2 A3 A4 (ix2 P q) := by
  subst h2 h3 h4
  rw [payload_at, layerArray_ix2]
  refine congrArg₂ (· + ·) (congrArg₂ (· + ·) ?_ ?_) rfl
  · exact Finset.sum_congr rfl fun k _ => congrArg (· * x2 (ix2 k q)) (h0 k)
  · exact Finset.sum_congr rfl fun k _ => congrArg (· * x3 (ix2 k q)) (h1 k)

/-! ## Where each window's block sits in its array

The grid has 25 points. At point `t` the two feature windows and the output window take block `(t, 0)` of 2000 rows;
the two weight windows and the bias window always take block `(0, 0)`, which is the whole array. A block's coordinate
in its array is the block index times the block's size plus the coordinate inside the block. -/

/-- Every access of the body starts at offset zero on both axes. -/
theorem zero_offsets : (![0, 0] : Fin 2 → Nat) = fun _ => 0 := funext fun a => by fin_cases a <;> rfl

/-- The block indices of the six windows at point `t`, decided over the 25 points: first feature window, -/
theorem index0 : ∀ t : Fin cfg1.N, win1_0.index t (0 : Fin 2) = t.val ∧ win1_0.index t (1 : Fin 2) = 0 :=
  (by decide +kernel : ∀ t : Fin grid1.N, _)
/-- second feature window, -/
theorem index1 : ∀ t : Fin cfg1.N, win1_1.index t (0 : Fin 2) = t.val ∧ win1_1.index t (1 : Fin 2) = 0 :=
  (by decide +kernel : ∀ t : Fin grid1.N, _)
/-- first weight window, -/
theorem index2 : ∀ t : Fin cfg1.N, win1_2.index t (0 : Fin 2) = 0 ∧ win1_2.index t (1 : Fin 2) = 0 :=
  (by decide +kernel : ∀ t : Fin grid1.N, _)
/-- second weight window, -/
theorem index3 : ∀ t : Fin cfg1.N, win1_3.index t (0 : Fin 2) = 0 ∧ win1_3.index t (1 : Fin 2) = 0 :=
  (by decide +kernel : ∀ t : Fin grid1.N, _)
/-- bias window, -/
theorem index4 : ∀ t : Fin cfg1.N, win1_4.index t (0 : Fin 2) = 0 ∧ win1_4.index t (1 : Fin 2) = 0 :=
  (by decide +kernel : ∀ t : Fin grid1.N, _)
/-- output window. -/
theorem index5 : ∀ t : Fin cfg1.N, win1_5.index t (0 : Fin 2) = t.val ∧ win1_5.index t (1 : Fin 2) = 0 :=
  (by decide +kernel : ∀ t : Fin grid1.N, _)

/-- Row `p` of the first feature window's block at point `t` is row `2000 t + p` of its array. -/
theorem rows0_read (c : Dev nD) (t : Fin cfg1.N) (p : Fin 2000) (k : Fin 256) (P : Fin 50000) (hP : P.val = t.val * 2000 + p.val) :
    (iblk1 (F := Ideal) V c 0 t : Vec Ideal S2000x256 .f32) (ix2 p k) = (V c main_v43 : S50000x256.Idx → EReal) (ix2 P k) := by
  obtain ⟨e0, e1⟩ := index0 t
  show V c main_v43 (((cfg1.win 0).blk t).view.emb (ix2 p k)) = V c main_v43 (ix2 P k)
  have h : ((cfg1.win 0).blk t).view.emb (ix2 p k) = ix2 P k := by
    funext a; apply Fin.ext
    match a with
    | ⟨0, _⟩ => show win1_0.index t (0 : Fin 2) * 2000 + 1 * p.val = P.val; omega
    | ⟨1, _⟩ => show win1_0.index t (1 : Fin 2) * 256 + 1 * k.val = k.val; omega
  rw [h]

/-- Row `p` of the second feature window's block at point `t` is row `2000 t + p` of its array. -/
theorem rows1_read (c : Dev nD) (t : Fin cfg1.N) (p : Fin 2000) (k : Fin 256) (P : Fin 50000) (hP : P.val = t.val * 2000 + p.val) :
    (iblk1 (F := Ideal) V c 1 t : Vec Ideal S2000x256 .f32) (ix2 p k) = (V c main_v24 : S50000x256.Idx → EReal) (ix2 P k) := by
  obtain ⟨e0, e1⟩ := index1 t
  show V c main_v24 (((cfg1.win 1).blk t).view.emb (ix2 p k)) = V c main_v24 (ix2 P k)
  have h : ((cfg1.win 1).blk t).view.emb (ix2 p k) = ix2 P k := by
    funext a; apply Fin.ext
    match a with
    | ⟨0, _⟩ => show win1_1.index t (0 : Fin 2) * 2000 + 1 * p.val = P.val; omega
    | ⟨1, _⟩ => show win1_1.index t (1 : Fin 2) * 256 + 1 * k.val = k.val; omega
  rw [h]

/-- The first weight window's block is its whole array at every point. -/
theorem whole2_read (c : Dev nD) (t : Fin cfg1.N) :
    (iblk1 (F := Ideal) V c 2 t : Vec Ideal S256x128 .f32) = (V c main_arg5 : S256x128.Idx → EReal) := by
  obtain ⟨e0, e1⟩ := index2 t
  funext y
  show V c main_arg5 (((cfg1.win 2).blk t).view.emb y) = V c main_arg5 y
  have h : ((cfg1.win 2).blk t).view.emb y = y := by
    funext a; apply Fin.ext
    match a with
    | ⟨0, _⟩ => show win1_2.index t (0 : Fin 2) * 256 + 1 * (y 0).val = (y 0).val; omega
    | ⟨1, _⟩ => show win1_2.index t (1 : Fin 2) * 128 + 1 * (y 1).val = (y 1).val; omega
  rw [h]

/-- The second weight window's block is its whole array at every point. -/
theorem whole3_read (c : Dev nD) (t : Fin cfg1.N) :
    (iblk1 (F := Ideal) V c 3 t : Vec Ideal S256x128 .f32) = (V c main_arg7 : S256x128.Idx → EReal) := by
  obtain ⟨e0, e1⟩ := index3 t
  funext y
  show V c main_arg7 (((cfg1.win 3).blk t).view.emb y) = V c main_arg7 y
  have h : ((cfg1.win 3).blk t).view.emb y = y := by
    funext a; apply Fin.ext
    match a with
    | ⟨0, _⟩ => show win1_3.index t (0 : Fin 2) * 256 + 1 * (y 0).val = (y 0).val; omega
    | ⟨1, _⟩ => show win1_3.index t (1 : Fin 2) * 128 + 1 * (y 1).val = (y 1).val; omega
  rw [h]

/-- The bias window's block is its whole one-row array at every point. -/
theorem whole4_read (c : Dev nD) (t : Fin cfg1.N) :
    (iblk1 (F := Ideal) V c 4 t : Vec Ideal S1x128 .f32) = (V c main_v44 : S1x128.Idx → EReal) := by
  obtain ⟨e0, e1⟩ := index4 t
  funext y
  show V c main_v44 (((cfg1.win 4).blk t).view.emb y) = V c main_v44 y
  have h : ((cfg1.win 4).blk t).view.emb y = y := by
    funext a; apply Fin.ext
    match a with
    | ⟨0, _⟩ => show win1_4.index t (0 : Fin 2) * 1 + 1 * (y 0).val = (y 0).val; omega
    | ⟨1, _⟩ => show win1_4.index t (1 : Fin 2) * 128 + 1 * (y 1).val = (y 1).val; omega
  rw [h]

/-- A buffer of 2000 rows that agrees with an array `G` on rows `2000 t … 2000 t + 1999` is the output window's
    block of `G` at point `t`. -/
theorem out_block_eq (t : Fin cfg1.N) (G : S50000x128.Idx → EReal) (X : Vec Ideal S2000x128 .f32)
    (h : ∀ (p : Fin 2000) (q : Fin 128) (P : Fin 50000), P.val = t.val * 2000 + p.val → X (ix2 p q) = G (ix2 P q)) :
    (cfg1.win 5).cut (grid1.coords t) X = ((cfg1.win 5).blk t).view.read (Elt Ideal) G := by
  obtain ⟨e0, e1⟩ := index5 t
  have hN : cfg1.N = 25 := N_1
  funext (j : S2000x128.Idx)
  obtain ⟨p, q, rfl⟩ : ∃ (p : Fin 2000) (q : Fin 128), j = ix2 p q := ⟨j 0, j 1, eq_ix2 j⟩
  show X (ix2 p q) = G (((cfg1.win 5).blk t).view.emb (ix2 p q))
  have hlt : t.val * 2000 + p.val < 50000 := by have := t.isLt; omega
  have hemb : ((cfg1.win 5).blk t).view.emb (ix2 p q) = ix2 (⟨t.val * 2000 + p.val, hlt⟩ : Fin 50000) q := by
    funext a; apply Fin.ext
    match a with
    | ⟨0, _⟩ => show win1_5.index t (0 : Fin 2) * 2000 + 1 * p.val = t.val * 2000 + p.val; omega
    | ⟨1, _⟩ => show win1_5.index t (1 : Fin 2) * 128 + 1 * q.val = q.val; omega
  rw [hemb]
  exact h p q ⟨t.val * 2000 + p.val, hlt⟩ rfl

/-! ## What each point writes back, the cover, and the array when the region ends -/

/-- What point `t` writes back is block `t` of the layer's array of the five arrays as the region finds them. -/
theorem written_back_block (c : Dev nD) (t : Fin cfg1.N) :
    (dat1 (F := Ideal) V c).flushed 5 t
      = ((cfg1.win 5).blk t).view.read (Elt Ideal) (layerArray (V c main_v43) (V c main_v24) (V c main_arg5) (V c main_arg7) (V c main_v44)) := by
  show (cfg1.win 5).cut (grid1.coords t) ((dat1 (F := Ideal) V c).after 5 t) = _
  rw [after1_5]
  unfold out1_5
  rw [View.canon_unit_zero zero_offsets]
  simp only [View.ld_unit_zero (S := S2000x256) zero_offsets, View.ld_unit_zero (S := S256x128) zero_offsets, View.ld_unit_zero (S := S1x128) zero_offsets]
  refine out_block_eq t (layerArray (V c main_v43) (V c main_v24) (V c main_arg5) (V c main_arg7) (V c main_v44))
    (k1_pay1 (iblk1 V c 0 t) (iblk1 V c 1 t) (iblk1 V c 2 t) (iblk1 V c 3 t) (iblk1 V c 4 t)) fun p q P hP => ?_
  exact payload_rows (V c main_v43) (V c main_v24) (V c main_arg5) (V c main_arg7) (V c main_v44)
    (iblk1 V c 0 t) (iblk1 V c 1 t) (iblk1 V c 2 t) (iblk1 V c 3 t) (iblk1 V c 4 t) p q P
    (fun k => rows0_read V c t p k P hP) (fun k => rows1_read V c t p k P hP)
    (whole2_read V c t) (whole3_read V c t) (whole4_read V c t)

/-- An index of the output array is in point `t`'s block iff each coordinate is in the block's range on its axis. -/
theorem mem_rows_block (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v45).slice (win1_5.rect t)).set ↔ _
  rw [View.set_slice_whole, Rect.mem_set_unit]
  exact Iff.rfl

/-- The 25 blocks of 2000 rows cover the 50000 rows: row `r` is in the block of point `r / 2000`. -/
theorem rows_covered (i : S50000x128.Idx) : ∃ t : Fin cfg1.N, (cfg1.win 5).flush t = true ∧ i ∈ ((cfg1.win 5).blk t).view.set := by
  have hN : cfg1.N = 25 := N_1
  have hi0 : (i 0).val < 50000 := idx2_lt0 i
  have hi1 : (i 1).val < 128 := idx2_lt1 i
  obtain ⟨t, ht⟩ : ∃ t : Fin cfg1.N, t.val = (i 0).val / 2000 := ⟨⟨(i 0).val / 2000, by omega⟩, rfl⟩
  obtain ⟨e0, e1⟩ := index5 t
  refine ⟨t, flush1_5 t, ?_⟩
  rw [mem_rows_block]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- When the region ends its output array is the layer's array of the five arrays the region reads. -/
theorem final1 (c : Dev nD) :
    (dat1 (F := Ideal) V c).arrAt 5 cfg1.N
      = layerArray (V c main_v43) (V c main_v24) (V c main_arg5) (V c main_arg7) (V c main_v44) :=
  (dat1 (F := Ideal) V c).arrAt_eq_of_cover 5 (layerArray (V c main_v43) (V c main_v24) (V c main_arg5) (V c main_arg7) (V c main_v44))
    (fun t _ => written_back_block V c t) rows_covered

end Cert.KernelIdeal.Region1
-- ==== Proof.KernelValue.lean ====
/-
  The kernel program's result as the reference's function of the launch arrays.

  The first region's output is, at node `p` and channel `q`, the maximum with zero of
  `(mean_1 · W1_l + x · W1_r)(p, q) + b1(q)`, over the arrays the region finds: the aggregated mean, the node features, the
  two weight matrices and the bias row. Those are the launch arrays and the aggregation of the launch arrays, so the
  output is the reference's hidden features: the reference adds the same three terms as `(mean_1 · W1_l + b1) + x · W1_r`,
  and `(s + t) + b = (s + b) + t` for any three extended reals. The second region's output is the same statement
  one layer up, over the hidden features and their aggregated mean, without the maximum; it is the reference's result.
  The run of the whole program ends with its result buffer at what the second region leaves, so at that function.
-/
import proofs.«166442_j11398843204124_1_alg».proof.Proof.KernelRun
import proofs.«166442_j11398843204124_1_alg».proof.Proof.HostReads1
import proofs.«166442_j11398843204124_1_alg».proof.Proof.Region0
import proofs.«166442_j11398843204124_1_alg».proof.Proof.Region1
set_option maxRecDepth 16384
open scoped BigOperators
noncomputable section
namespace Cert.KernelIdeal.KValue
open Idealize.ShloMosaic Idealize.ShloMosaic.TcCoe Idealize.SL.Sem Idealize.ShloMosaic.ValueIdx
open Cert.KernelIdeal Cert.KernelIdeal.Gen Cert.Sage

variable (m : (ℓ : Loc nD τ sig) → Buf (Elt Ideal) ℓ) (ρ : Dev nD → PrngReg)

/-- What the first region leaves in its output array is the reference's hidden features of the launch arrays. -/
theorem hidden_eq (c : Dev nD) :
    (W2 m ρ c (Proc.devRef .tc main_v24) : S50000x256.Idx → EReal)
      = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  rw [Region0.final0 (V1 m ρ) c]
  refine ext2 fun p q => ?_
  rw [rectifiedLayerArray_ix2, Cert.ReferenceIdeal.RefValue.hidden_at]
  rw [show (V1 m ρ c main_v22 : S50000x128.Idx → EReal) = _ from HostReads.W1_mean m ρ c,
    show (V1 m ρ c main_arg0 : S50000x128.Idx → EReal) = _ from HostReads.W1_main_arg0 m ρ c,
    show (V1 m ρ c main_arg2 : S128x256.Idx → EReal) = _ from HostReads.W1_main_arg2 m ρ c,
    show (V1 m ρ c main_arg4 : S128x256.Idx → EReal) = _ from HostReads.W1_main_arg4 m ρ c,
    show (V1 m ρ c main_v23 : S1x256.Idx → EReal) (ix2 0 q) = _ from HostReads.W1_bias m ρ c q]
  rw [add_right_comm]
  rfl

/-- What the second region leaves in its output array is the reference's result of the launch arrays. -/
theorem result_eq (c : Dev nD) :
    ((dat1 (V3 m ρ) c).arrAt 5 cfg1.N : S50000x128.Idx → EReal)
      = Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Region1.final1 (V3 m ρ) c]
  refine ext2 fun p q => ?_
  rw [layerArray_ix2, Cert.ReferenceIdeal.RefValue.result_at]
  rw [show (V3 m ρ c main_v43 : S50000x256.Idx → EReal) = _ from HostReads.W3_mean m ρ c,
    show (V3 m ρ c main_v24 : S50000x256.Idx → EReal) = _ from HostReads.W3_hidden m ρ c,
    hidden_eq m ρ c,
    show (V3 m ρ c main_arg5 : S256x128.Idx → EReal) = _ from HostReads.W3_main_arg5 m ρ c,
    show (V3 m ρ c main_arg7 : S256x128.Idx → EReal) = _ from HostReads.W3_main_arg7 m ρ c,
    show (V3 m ρ c main_v44 : S1x128.Idx → EReal) (ix2 0 q) = _ from HostReads.W3_bias m ρ c q]
  rw [add_right_comm]
  rfl

/-- Every weakly fair execution of the kernel program terminates without a fault with its result buffer at the
    reference's result of the launch arrays, and its eight argument arrays as launched. -/
theorem run : θ_run defs (onTc (τ := τ) (main (F := Ideal))) ⟨m, fun _ => 0, ρ⟩ (fun r => ∀ c : Dev nD,
      r.2.mem ((c.tc : Thread nD τ).loc main_v45) = Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (KRun.run_result (F := Ideal) m ρ)

end Cert.KernelIdeal.KValue
-- ==== Proof.lean ====
/- A two-layer graph network with mean aggregation, as a kernel program and as a plain reference, agree on the
   extended reals.

   Both programs take node features `x : [50000, 128]`, an edge list `e : [2, 800000]`, and per layer two weight matrices
   and a bias. Per layer both form the mean of each node's incoming messages by the same host operations (a gather
   along the edges' sources, a sum into the edges' targets, a division by the clamped in-degree) and then combine

       mean · W_l,   feat · W_r,   b

   by addition; the first layer is followed by the maximum with zero. The kernel program computes the two products and
   the sum in a tiled region (2000 nodes per block, the products as matrix-unit products into a zero accumulator in a
   narrower float format, which at the ideal values is the identity) and adds `(mean · W_l + feat · W_r) + b`; the
   reference adds `(mean · W_l + b) + feat · W_r`. Addition of extended reals is commutative and associative, also at
   the infinities, so the two agree for all inputs, finite or not: the precondition is not used.

   The pieces: Proof/Spec.lean (a layer index by index, and the law between the two orders of addition),
   Proof/Region0.lean and Proof/Region1.lean (what each region leaves in its output array, as one function of the
   arrays it reads), Proof/HostReads0.lean and Proof/HostReads1.lean (the buffers each region is entered with, read
   off the host operations before it), Proof/KernelRun.lean (the kernel program's run with its result buffer named),
   Proof/RefValue.lean (the reference's result as two layers), Proof/KernelValue.lean (the kernel's result is the
   reference's function of the launch arrays). Here the five claims are assembled: the two kernel programs' frames
   are the generated frame certificates, the reference's frame is its generated run with the result forgotten, the
   idealization rewrote nothing, and the two idealized programs end with the same result. -/
import proofs.«166442_j11398843204124_1_alg».proof.Defs
import proofs.«166442_j11398843204124_1_alg».proof.Proof.Gen.Kernel
import proofs.«166442_j11398843204124_1_alg».proof.Proof.Gen.Kernel.Frame
import proofs.«166442_j11398843204124_1_alg».proof.Proof.Gen.KernelIdeal
import proofs.«166442_j11398843204124_1_alg».proof.Proof.Gen.KernelIdeal.Frame
import proofs.«166442_j11398843204124_1_alg».proof.Proof.Gen.ReferenceIdeal
import proofs.«166442_j11398843204124_1_alg».proof.Proof.Gen.ReferenceIdeal.Run
import proofs.«166442_j11398843204124_1_alg».proof.Proof.Gen.ReferenceIdeal.Read
import proofs.«166442_j11398843204124_1_alg».proof.Proof.Gen.Pre_finite_inputs
import proofs.«166442_j11398843204124_1_alg».proof.Proof.KernelValue
import Idealize.ShloMosaic.Adequacy
import Idealize.ShloMosaic.Init

noncomputable section

namespace Cert.Proof

open Idealize.ShloMosaic Idealize.SL.Sem

/-- The kernel program as printed runs, and its arguments end unchanged. -/
theorem frame_kernel : Cert.frame_Kernel := fun m ρ _ => Cert.Kernel.Gen.frame m ρ

/-- The idealized kernel program runs, and its arguments end unchanged. -/
theorem frame_kernelIdeal : Cert.frame_KernelIdeal := fun m ρ _ => Cert.KernelIdeal.Gen.frame m ρ

/-- The idealized reference runs, and its arguments end unchanged: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel program: there is nothing to restate. -/
theorem preserves : Cert.preserves_Kernel_KernelIdeal := trivial

/-- From memories that agree on the eight arguments both idealized programs run and end with the same result: the
    reference's function of the kernel's launch arrays — for the kernel by its own run, for the reference by its run and
    the agreement of the arguments. -/
theorem algebraic : Cert.algebraic_KernelIdeal_ReferenceIdeal := by
  intro m ρ m' ρ' _ hagree
  refine ⟨fun c => Cert.ReferenceIdeal.Read.val_main_v54 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq]
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
